-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4000x129 : Shape := ⟨3, ![64, 4000, 129]⟩
abbrev S129x64 : Shape := ⟨2, ![129, 64]⟩
abbrev S_ : Shape := ⟨0, ![]⟩

class Facts : Prop where
  bcast_S_S64x4000x129 : S_.BroadcastsInDim S64x4000x129 (![] : Fin 0 → Fin S64x4000x129.rank)
  reducesTo_S64x4000x129_S_d0_1_2 : S64x4000x129.ReducesTo [0, 1, 2] S_
  h_S_ : 0 < S_.numel
  bcast_S_S129x64 : S_.BroadcastsInDim S129x64 (![] : Fin 0 → Fin S129x64.rank)
  reducesTo_S129x64_S_d0_1 : S129x64.ReducesTo [0, 1] S_

variable [Facts]

def fn_part1 {F : FTy → Type} [FloatOps F] (main_v13 : IVec S_ 1) (main_v16 : IVec S129x64 1) : IVec S_ 1 :=
  let main_c_5 : IVec S_ 1 := constantI S_ 1 1#1
  let main_v17 : IVec S_ 1 := (fun x v => Host.reduce IntOp.andi x v reducesTo_S129x64_S_d0_1 h_S_) main_v16 main_c_5
  let main_v18 : IVec S_ 1 := andi main_v13 main_v17
  main_v18

def fn {F : FTy → Type} [FloatOps F] (main_arg0 : FVec F S64x4000x129 .f32) (main_arg1 : FVec F S64x4000x129 .f32) (main_arg2 : FVec F S129x64 .f32) (main_arg3 : FVec F S129x64 .f32) : IVec S_ 1 :=
  let main_v0 : FVec F S64x4000x129 .f32 := Host.absf main_arg0
  let main_cst : FVec F S_ .f32 := constant S_ .f32 0x7F800000#32
  let main_v1 : FVec F S64x4000x129 .f32 := broadcastInDim S64x4000x129 ![] bcast_S_S64x4000x129 main_cst
  let main_v2 : IVec S64x4000x129 1 := cmpf .olt main_v0 main_v1
  let main_c : IVec S_ 1 := constantI S_ 1 1#1
  let main_v3 : IVec S_ 1 := (fun x v => Host.reduce IntOp.andi x v reducesTo_S64x4000x129_S_d0_1_2 h_S_) main_v2 main_c
  let main_v4 : FVec F S64x4000x129 .f32 := Host.absf main_arg1
  let main_cst_0 : FVec F S_ .f32 := constant S_ .f32 0x7F800000#32
  let main_v5 : FVec F S64x4000x129 .f32 := broadcastInDim S64x4000x129 ![] bcast_S_S64x4000x129 main_cst_0
  let main_v6 : IVec S64x4000x129 1 := cmpf .olt main_v4 main_v5
  let main_c_1 : IVec S_ 1 := constantI S_ 1 1#1
  let main_v7 : IVec S_ 1 := (fun x v => Host.reduce IntOp.andi x v reducesTo_S64x4000x129_S_d0_1_2 h_S_) main_v6 main_c_1
  let main_v8 : IVec S_ 1 := andi main_v3 main_v7
  let main_v9 : FVec F S129x64 .f32 := Host.absf main_arg2
  let main_cst_2 : FVec F S_ .f32 := constant S_ .f32 0x7F800000#32
  let main_v10 : FVec F S129x64 .f32 := broadcastInDim S129x64 ![] bcast_S_S129x64 main_cst_2
  let main_v11 : IVec S129x64 1 := cmpf .olt main_v9 main_v10
  let main_c_3 : IVec S_ 1 := constantI S_ 1 1#1
  let main_v12 : IVec S_ 1 := (fun x v => Host.reduce IntOp.andi x v reducesTo_S129x64_S_d0_1 h_S_) main_v11 main_c_3
  let main_v13 : IVec S_ 1 := andi main_v8 main_v12
  let main_v14 : FVec F S129x64 .f32 := Host.absf main_arg3
  let main_cst_4 : FVec F S_ .f32 := constant S_ .f32 0x7F800000#32
  let main_v15 : FVec F S129x64 .f32 := broadcastInDim S129x64 ![] bcast_S_S129x64 main_cst_4
  let main_v16 : IVec S129x64 1 := cmpf .olt main_v14 main_v15
  fn_part1 (F := F) main_v13 main_v16
-- ==== Kernel.lean ====
abbrev S64x4000x129 : Shape := ⟨3, ![64, 4000, 129]⟩
abbrev S129x64 : Shape := ⟨2, ![129, 64]⟩
abbrev S256000x129 : Shape := ⟨2, ![256000, 129]⟩
abbrev S128000x128 : Shape := ⟨2, ![128000, 128]⟩
abbrev S8000x129 : Shape := ⟨2, ![8000, 129]⟩
abbrev S4000x128 : Shape := ⟨2, ![4000, 128]⟩
abbrev S8000x64 : Shape := ⟨2, ![8000, 64]⟩
abbrev S256000x64 : Shape := ⟨2, ![256000, 64]⟩
abbrev S64x4000x64 : Shape := ⟨3, ![64, 4000, 64]⟩

abbrev nBuf : Space → Nat
  | .hbm => 9
  | .vmem => 8
  | .smem => 0
  | _ => 0

abbrev bufTy : (tb : Table) → Fin (tcTables nBuf tb) → BufTy
  | .hbm, ⟨0, _⟩ => ⟨S64x4000x129, .f32⟩
  | .hbm, ⟨1, _⟩ => ⟨S64x4000x129, .f32⟩
  | .hbm, ⟨2, _⟩ => ⟨S129x64, .f32⟩
  | .hbm, ⟨3, _⟩ => ⟨S129x64, .f32⟩
  | .hbm, ⟨4, _⟩ => ⟨S256000x129, .f32⟩
  | .hbm, ⟨5, _⟩ => ⟨S256000x129, .f32⟩
  | .hbm, ⟨6, _⟩ => ⟨S128000x128, .f32⟩
  | .hbm, ⟨7, _⟩ => ⟨S256000x64, .f32⟩
  | .hbm, ⟨8, _⟩ => ⟨S64x4000x64, .f32⟩
  | .local _ .vmem, ⟨0, _⟩ => ⟨S8000x129, .f32⟩
  | .local _ .vmem, ⟨1, _⟩ => ⟨S8000x129, .f32⟩
  | .local _ .vmem, ⟨2, _⟩ => ⟨S8000x129, .f32⟩
  | .local _ .vmem, ⟨3, _⟩ => ⟨S8000x129, .f32⟩
  | .local _ .vmem, ⟨4, _⟩ => ⟨S129x64, .f32⟩
  | .local _ .vmem, ⟨5, _⟩ => ⟨S129x64, .f32⟩
  | .local _ .vmem, ⟨6, _⟩ => ⟨S4000x128, .f32⟩
  | .local _ .vmem, ⟨7, _⟩ => ⟨S4000x128, .f32⟩
  | _, _ => ⟨S64x4000x129, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x129 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x129 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S129x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S129x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x4000x129_S256000x129 : S64x4000x129.ShapeCasts S256000x129
  inb_S8000x129_S8000x129_0_0 : ∀ a, (![0, 0] : Fin 2 → Nat) a + S8000x129.size a ≤ S8000x129.size a
  h_S8000x129 : 0 < S8000x129.numel
  shapeCasts_S8000x129_S8000x129 : S8000x129.ShapeCasts S8000x129
  inb_S129x64_S129x64_0_0 : ∀ a, (![0, 0] : Fin 2 → Nat) a + S129x64.size a ≤ S129x64.size a
  h_S129x64 : 0 < S129x64.numel
  shapeCasts_S8000x64_S4000x128 : S8000x64.ShapeCasts S4000x128
  inb_S4000x128_S4000x128_0_0 : ∀ a, (![0, 0] : Fin 2 → Nat) a + S4000x128.size a ≤ S4000x128.size a
  h_S4000x128 : 0 < S4000x128.numel
  shapeCasts_S128000x128_S256000x64 : S128000x128.ShapeCasts S256000x64
  shapeCasts_S256000x64_S64x4000x64 : S256000x64.ShapeCasts S64x4000x64
  dot_S8000x129_S129x64_S8000x64_1_0_0_1_n_n_wf : DotDims.WF S8000x129 S129x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x129.size a ≤ S256000x129.size a
  hwx0_0 : ∀ i : grid0.Coords, EltTy.bits .f32 = 32 ∨ (Rect.block (s := S256000x129) S8000x129.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x129.size a ≤ S256000x129.size a
  hwx0_1 : ∀ i : grid0.Coords, EltTy.bits .f32 = 32 ∨ (Rect.block (s := S256000x129) S8000x129.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S129x64.size a ≤ S129x64.size a
  hwx0_2 : ∀ i : grid0.Coords, EltTy.bits .f32 = 32 ∨ (Rect.block (s := S129x64) S129x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S129x64.size a ≤ S129x64.size a
  hwx0_3 : ∀ i : grid0.Coords, EltTy.bits .f32 = 32 ∨ (Rect.block (s := S129x64) S129x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S128000x128.size a
  hwx0_4 : ∀ i : grid0.Coords, EltTy.bits .f32 = 32 ∨ (Rect.block (s := S128000x128) S4000x128.size (cc0_transform_4 i) (hinb0_4 i)).WholeWords (EltTy.packing .f32)

variable [Facts₀]

def dot_S8000x129_S129x64_S8000x64_1_0_0_1_n_n : DotDims S8000x129 S129x64 S8000x64 where
  lhsContracting := [1]
  rhsContracting := [0]
  lhsNonContracting := [0]
  rhsNonContracting := [1]
  lhsBatch := []
  rhsBatch := []
  wf := dot_S8000x129_S129x64_S8000x64_1_0_0_1_n_n_wf

abbrev win0_0 : Pipeline.Window sig grid0 :=
  Pipeline.Window.ofSpec (Memref.whole main_v0) S8000x129.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8000x129.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S129x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S129x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x4000x129 : Shape := ⟨3, ![64, 4000, 129]⟩
abbrev S129x64 : Shape := ⟨2, ![129, 64]⟩
abbrev S64x4000x64 : Shape := ⟨3, ![64, 4000, 64]⟩

abbrev nBuf : Space → Nat
  | .hbm => 7
  | .vmem => 0
  | .smem => 0
  | _ => 0

abbrev bufTy : (tb : Table) → Fin (tcTables nBuf tb) → BufTy
  | .hbm, ⟨0, _⟩ => ⟨S64x4000x129, .f32⟩
  | .hbm, ⟨1, _⟩ => ⟨S64x4000x129, .f32⟩
  | .hbm, ⟨2, _⟩ => ⟨S129x64, .f32⟩
  | .hbm, ⟨3, _⟩ => ⟨S129x64, .f32⟩
  | .hbm, ⟨4, _⟩ => ⟨S64x4000x64, .f32⟩
  | .hbm, ⟨5, _⟩ => ⟨S64x4000x64, .f32⟩
  | .hbm, ⟨6, _⟩ => ⟨S64x4000x64, .f32⟩
  | _, _ => ⟨S64x4000x129, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  dot_S64x4000x129_S129x64_S64x4000x64_2_0_01_1_n_n_wf : DotDims.WF S64x4000x129 S129x64 S64x4000x64 [2] [0] [0, 1] [1] [] []

variable [Facts₀]

def dot_S64x4000x129_S129x64_S64x4000x64_2_0_01_1_n_n : DotDims S64x4000x129 S129x64 S64x4000x64 where
  lhsContracting := [2]
  rhsContracting := [0]
  lhsNonContracting := [0, 1]
  rhsNonContracting := [1]
  lhsBatch := []
  rhsBatch := []
  wf := dot_S64x4000x129_S129x64_S64x4000x64_2_0_01_1_n_n_wf

class Facts : Prop extends Facts₀ where

variable [Facts]
-- ==== Proof.Body.lean ====
/-
  What one grid step computes, entry by entry.

  A step holds a block of 8000 consecutive rows of each flattened spectrum (x0, x1 : [8000, 129]) and the two whole
  synthesis matrices (x2, x3 : [129, 64]). It forms the two [8000, 64] products into a zero accumulator, adds them, and
  views the [8000, 64] sum as [4000, 128]: two consecutive rows side by side. So entry (y₀, y₁) of what it stores is
  entry (2·y₀ + y₁ / 64, y₁ mod 64) of the sum (same row-major position 128·y₀ + y₁), which is
      Σₙ x0[p, n] · x2[n, o] + Σₙ x1[p, n] · x3[n, o],      p = 2·y₀ + y₁ / 64,  o = y₁ mod 64.
  A product into the zero accumulator is just the sum over the one contracted axis (0 + Σ = Σ on the extended reals);
  the contraction's index set is re-indexed by the 129 bins.
-/
import proofs.«137393_j19490561590130_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The operand indices of the [8000, 129] × [129, 64] product, coordinate by coordinate -/

/-- The left operand is read at the output's row … -/
theorem lhs_row (j : S8000x64.Idx) (q : dot_S8000x129_S129x64_S8000x64_1_0_0_1_n_n.contr.Idx) :
    (dot_S8000x129_S129x64_S8000x64_1_0_0_1_n_n.lhsIdx j q 0).val = (j 0).val := by
  unfold DotDims.lhsIdx
  rw [dif_neg (show ¬(0 : Fin S8000x129.rank) ∈ dot_S8000x129_S129x64_S8000x64_1_0_0_1_n_n.lhsBatch by decide),
    dif_pos (show (0 : Fin S8000x129.rank) ∈ dot_S8000x129_S129x64_S8000x64_1_0_0_1_n_n.lhsNonContracting by decide)]
  rfl
/-- … and the contracted bin; -/
theorem lhs_bin (j : S8000x64.Idx) (q : dot_S8000x129_S129x64_S8000x64_1_0_0_1_n_n.contr.Idx) :
    (dot_S8000x129_S129x64_S8000x64_1_0_0_1_n_n.lhsIdx j q 1).val = (q ⟨0, by decide⟩).val :=
  dot_S8000x129_S129x64_S8000x64_1_0_0_1_n_n.lhsIdx_val_of_single rfl j q
/-- the right operand at the contracted bin … -/
theorem rhs_bin (j : S8000x64.Idx) (q : dot_S8000x129_S129x64_S8000x64_1_0_0_1_n_n.contr.Idx) :
    (dot_S8000x129_S129x64_S8000x64_1_0_0_1_n_n.rhsIdx j q 0).val = (q ⟨0, by decide⟩).val :=
  dot_S8000x129_S129x64_S8000x64_1_0_0_1_n_n.rhsIdx_val_of_single rfl j q
/-- … and the output's column. -/
theorem rhs_col (j : S8000x64.Idx) (q : dot_S8000x129_S129x64_S8000x64_1_0_0_1_n_n.contr.Idx) :
    (dot_S8000x129_S129x64_S8000x64_1_0_0_1_n_n.rhsIdx j q 1).val = (j 1).val := by
  unfold DotDims.rhsIdx
  rw [dif_neg (show ¬(1 : Fin S129x64.rank) ∈ dot_S8000x129_S129x64_S8000x64_1_0_0_1_n_n.rhsBatch by decide),
    dif_pos (show (1 : Fin S129x64.rank) ∈ dot_S8000x129_S129x64_S8000x64_1_0_0_1_n_n.rhsNonContracting by decide)]
  rfl

/-- The product into a zero accumulator, at (p, o): the sum over the bins of row p of the left operand against
    column o of the right. -/
theorem product_apply (l : FVec Ideal S8000x129 .f32) (r : FVec Ideal S129x64 .f32) (p : Fin 8000) (o : Fin 64) :
    matmul dot_S8000x129_S129x64_S8000x64_1_0_0_1_n_n (some .fp32) l r (constant (F := Ideal) S8000x64 .f32 0x00000000#32) (ix2 p o)
      = ∑ k : Fin 129, l (ix2 p k) * r (ix2 k o) := by
  simp only [matmul]
  rw [Ideal.matmul_constant_zero_apply, ← Equiv.sum_comp (contrEquiv1 dot_S8000x129_S129x64_S8000x64_1_0_0_1_n_n 129 rfl rfl).symm]
  refine Finset.sum_congr rfl fun k _ => ?_
  have hk := contrEquiv1_symm_val dot_S8000x129_S129x64_S8000x64_1_0_0_1_n_n 129 rfl rfl k
  have el : dot_S8000x129_S129x64_S8000x64_1_0_0_1_n_n.lhsIdx (ix2 p o) ((contrEquiv1 dot_S8000x129_S129x64_S8000x64_1_0_0_1_n_n 129 rfl rfl).symm k) = ix2 p k :=
    funext fun a => Fin.ext (by
      match a with
      | ⟨0, _⟩ => exact lhs_row _ _
      | ⟨1, _⟩ => exact (lhs_bin _ _).trans hk)
  have er : dot_S8000x129_S129x64_S8000x64_1_0_0_1_n_n.rhsIdx (ix2 p o) ((contrEquiv1 dot_S8000x129_S129x64_S8000x64_1_0_0_1_n_n 129 rfl rfl).symm k) = ix2 k o :=
    funext fun a => Fin.ext (by
      match a with
      | ⟨0, _⟩ => exact (rhs_bin _ _).trans hk
      | ⟨1, _⟩ => exact rhs_col _ _)
  rw [el, er]

/-- What the step stores, at (y₀, y₁): the two contractions of row 2·y₀ + y₁ / 64 of its spectrum blocks against column
    y₁ mod 64 of the matrices, added. -/
theorem stored_apply (x0 x1 : Vec Ideal S8000x129 .f32) (x2 x3 : Vec Ideal S129x64 .f32) (y0 : Fin 4000) (y1 : Fin 128)
    (hp : 2 * y0.val + y1.val / 64 < 8000) (ho : y1.val % 64 < 64) :
    k0_pay1 (F := Ideal) x0 x1 x2 x3 (ix2 y0 y1)
      = (∑ k : Fin 129, x0 (ix2 (⟨2 * y0.val + y1.val / 64, hp⟩ : Fin 8000) k) * x2 (ix2 k (⟨y1.val % 64, ho⟩ : Fin 64)))
        + ∑ k : Fin 129, x1 (ix2 (⟨2 * y0.val + y1.val / 64, hp⟩ : Fin 8000) k) * x3 (ix2 k (⟨y1.val % 64, ho⟩ : Fin 64)) := by
  unfold k0_pay1
  rw [shapeCast_apply _ shapeCasts_S8000x64_S4000x128 (ix2 y0 y1)
    (ix2 (⟨2 * y0.val + y1.val / 64, hp⟩ : Fin 8000) (⟨y1.val % 64, ho⟩ : Fin 64)) (by
      rw [Shape.rowMajor_val_two, Shape.rowMajor_val_two]
      show (2 * y0.val + y1.val / 64) * 64 + y1.val % 64 = y0.val * 128 + y1.val
      omega)]
  rw [addf_apply, product_apply, product_apply, shapeCast_self, shapeCast_self]

/-- The same at any index j of the stored [4000, 128] block, its coordinates taken apart. -/
theorem stored_at (x0 x1 : Vec Ideal S8000x129 .f32) (x2 x3 : Vec Ideal S129x64 .f32) (j : S4000x128.Idx)
    (hp : 2 * (j 0).val + (j 1).val / 64 < 8000) (ho : (j 1).val % 64 < 64) :
    k0_pay1 (F := Ideal) x0 x1 x2 x3 j
      = (∑ k : Fin 129, x0 (ix2 (⟨2 * (j 0).val + (j 1).val / 64, hp⟩ : Fin 8000) k) * x2 (ix2 k (⟨(j 1).val % 64, ho⟩ : Fin 64)))
        + ∑ k : Fin 129, x1 (ix2 (⟨2 * (j 0).val + (j 1).val / 64, hp⟩ : Fin 8000) k) * x3 (ix2 k (⟨(j 1).val % 64, ho⟩ : Fin 64)) := by
  obtain ⟨y0, y1, rfl⟩ : ∃ (y0 : Fin 4000) (y1 : Fin 128), j = ix2 y0 y1 := ⟨j 0, j 1, eq_ix2 j⟩
  exact stored_apply x0 x1 x2 x3 y0 y1 hp ho

end Cert.KernelIdeal.Body

end
-- ==== Proof.Spec.lean ====
/-
  The dense inverse real FFT as ONE function of its four arguments, and the two re-layouts of it that a blocked
  evaluation passes through.

  With spectra re, im indexed by (batch b, frame t, bin n) and two synthesis matrices indexed by (bin n, sample o), the
  result is, entry by entry,
      out[b, t, o] = Σₙ re[b, t, n] · m_real[n, o]  +  Σₙ im[b, t, n] · m_imag[n, o]         (synth)
  on the extended reals. Nothing here needs an input to be finite: the two sides of every equation below are the SAME
  sums of the same products, only named through different layouts of the index.

  Flattened rows: batch and frame collapse to one row r = 4000·b + t, giving a [256000, 129] spectrum and a [256000, 64]
  result (flat). Packed lanes: two consecutive result rows share one 128-wide row, so the [256000, 64] result is viewed
  as [128000, 128] (packed); entry (j₀, j₁) of the packed view is entry (2·j₀ + j₁ / 64, j₁ mod 64) of the flat one,
  because both sit at row-major position 128·j₀ + j₁.
-/
import Idealize.ShloMosaic.PureOps.Ideal
import Idealize.ShloMosaic.Lib.ValueIdx
import Idealize.ShloMosaic.Lib.Pipeline.Value

noncomputable section

namespace Cert.Irfft

open Idealize.ShloMosaic Idealize.ShloMosaic.ValueIdx

/-- Spectra by (batch, frame, bin). -/
abbrev Spectra : Shape := ⟨3, ![64, 4000, 129]⟩
/-- A synthesis matrix by (bin, sample). -/
abbrev Basis : Shape := ⟨2, ![129, 64]⟩
/-- The result by (batch, frame, sample). -/
abbrev Signal : Shape := ⟨3, ![64, 4000, 64]⟩
/-- Spectra by (row, bin), row = 4000 · batch + frame. -/
abbrev SpectraRows : Shape := ⟨2, ![256000, 129]⟩
/-- The result by (row, sample). -/
abbrev SignalRows : Shape := ⟨2, ![256000, 64]⟩
/-- The result with two consecutive rows side by side in one 128-wide row. -/
abbrev SignalPacked : Shape := ⟨2, ![128000, 128]⟩

/-- One entry of the result: the two contractions over the 129 bins, added. -/
def synthAt (re im : Spectra.Idx → EReal) (mr mi : Basis.Idx → EReal) (b : Fin 64) (t : Fin 4000) (o : Fin 64) : EReal :=
  (∑ k : Fin 129, re (ix3 b t k) * mr (ix2 k o)) + ∑ k : Fin 129, im (ix3 b t k) * mi (ix2 k o)

/-- The result as one function of the four arguments. -/
def synth (re im : Spectra.Idx → EReal) (mr mi : Basis.Idx → EReal) : Signal.Idx → EReal :=
  fun i => synthAt re im mr mi (i 0) (i 1) (i 2)

theorem synth_apply (re im : Spectra.Idx → EReal) (mr mi : Basis.Idx → EReal) (b : Fin 64) (t : Fin 4000) (o : Fin 64) :
    synth re im mr mi (ix3 b t o) = synthAt re im mr mi b t o := rfl

/-- One entry of the result over flattened rows. -/
def flatAt (a0 a1 : SpectraRows.Idx → EReal) (mr mi : Basis.Idx → EReal) (r : Fin 256000) (o : Fin 64) : EReal :=
  (∑ k : Fin 129, a0 (ix2 r k) * mr (ix2 k o)) + ∑ k : Fin 129, a1 (ix2 r k) * mi (ix2 k o)

/-- The result over flattened rows, as one function of the flattened spectra and the matrices. -/
def flat (a0 a1 : SpectraRows.Idx → EReal) (mr mi : Basis.Idx → EReal) : SignalRows.Idx → EReal :=
  fun j => flatAt a0 a1 mr mi (j 0) (j 1)

theorem flat_apply (a0 a1 : SpectraRows.Idx → EReal) (mr mi : Basis.Idx → EReal) (r : Fin 256000) (o : Fin 64) :
    flat a0 a1 mr mi (ix2 r o) = flatAt a0 a1 mr mi r o := rfl

/-- The flat result viewed 128 wide. -/
def packed (a0 a1 : SpectraRows.Idx → EReal) (mr mi : Basis.Idx → EReal) (h : SignalRows.ShapeCasts SignalPacked) :
    SignalPacked.Idx → EReal :=
  shapeCast SignalPacked (flat a0 a1 mr mi) h

/-- Flattened spectra read at row 4000·b + t are the spectra at (b, t): same row-major position. -/
theorem rows_apply (x : Spectra.Idx → EReal) (h : Spectra.ShapeCasts SpectraRows) (b : Fin 64) (t : Fin 4000) (k : Fin 129)
    (hr : 4000 * b.val + t.val < 256000) :
    shapeCast SpectraRows x h (ix2 (⟨4000 * b.val + t.val, hr⟩ : Fin 256000) k) = x (ix3 b t k) :=
  shapeCast_apply x h _ _ (by
    rw [Shape.rowMajor_val_three, Shape.rowMajor_val_two]
    show (b.val * 4000 + t.val) * 129 + k.val = (4000 * b.val + t.val) * 129 + k.val
    omega)

/-- Un-flattening the flat result of the flattened spectra gives the result itself: entry (b, t, o) is the flat entry at
    row 4000·b + t, whose two contractions run over the spectra's row (b, t). -/
theorem unflatten_flat (re im : Spectra.Idx → EReal) (mr mi : Basis.Idx → EReal) (h : Spectra.ShapeCasts SpectraRows)
    (h' : SignalRows.ShapeCasts Signal) :
    shapeCast Signal (flat (shapeCast SpectraRows re h) (shapeCast SpectraRows im h) mr mi) h' = synth re im mr mi := by
  funext i
  obtain ⟨b, t, o, rfl⟩ : ∃ (b : Fin 64) (t : Fin 4000) (o : Fin 64), i = ix3 b t o := ⟨i 0, i 1, i 2, eq_ix3 i⟩
  have hr : 4000 * b.val + t.val < 256000 := by omega
  rw [shapeCast_apply _ h' (ix3 b t o) (ix2 (⟨4000 * b.val + t.val, hr⟩ : Fin 256000) o) (by
    rw [Shape.rowMajor_val_two, Shape.rowMajor_val_three]
    show (4000 * b.val + t.val) * 64 + o.val = (b.val * 4000 + t.val) * 64 + o.val
    omega)]
  rw [flat_apply, synth_apply]
  unfold flatAt synthAt
  simp only [rows_apply _ h b t _ hr]

/-- The packed view read at (4000·q + y₀, y₁) is the flat result at row 8000·q + 2·y₀ + y₁ / 64, sample y₁ mod 64:
    both sit at row-major position 128·(4000·q + y₀) + y₁ = 64·(8000·q + 2·y₀ + y₁ / 64) + y₁ mod 64. -/
theorem packed_apply (a0 a1 : SpectraRows.Idx → EReal) (mr mi : Basis.Idx → EReal) (h : SignalRows.ShapeCasts SignalPacked)
    (q : ℕ) (y0 : Fin 4000) (y1 : Fin 128) (j : SignalPacked.Idx)
    (hj0 : (j 0).val = q * 4000 + 1 * y0.val) (hj1 : (j 1).val = 0 * 128 + 1 * y1.val)
    (hr : q * 8000 + (2 * y0.val + y1.val / 64) < 256000) (ho : y1.val % 64 < 64) :
    packed a0 a1 mr mi h j
      = flatAt a0 a1 mr mi (⟨q * 8000 + (2 * y0.val + y1.val / 64), hr⟩ : Fin 256000) (⟨y1.val % 64, ho⟩ : Fin 64) := by
  unfold packed
  rw [shapeCast_apply _ h j (ix2 (⟨q * 8000 + (2 * y0.val + y1.val / 64), hr⟩ : Fin 256000) (⟨y1.val % 64, ho⟩ : Fin 64)) (by
    rw [Shape.rowMajor_val_two, Shape.rowMajor_val_two]
    show (q * 8000 + (2 * y0.val + y1.val / 64)) * 64 + y1.val % 64 = (j 0).val * 128 + (j 1).val
    rw [hj0, hj1]
    omega)]
  rfl

/-- Widening the packed view back to 64 columns gives the flat result back. -/
theorem unpack_packed (a0 a1 : SpectraRows.Idx → EReal) (mr mi : Basis.Idx → EReal) (h : SignalRows.ShapeCasts SignalPacked)
    (h' : SignalPacked.ShapeCasts SignalRows) :
    shapeCast SignalRows (packed a0 a1 mr mi h) h' = flat a0 a1 mr mi :=
  shapeCast_shapeCast _ h h'

end Cert.Irfft

end
-- ==== Proof.Blocks.lean ====
/-
  From the grid's blocks to the whole packed array.

  The grid has 32 points. Point q holds rows 8000·q … 8000·q + 7999 of each flattened spectrum, both whole matrices, and
  writes rows 4000·q … 4000·q + 3999 of the packed [128000, 128] output. What it writes at (y₀, y₁) is the two
  contractions of its local row 2·y₀ + y₁ / 64 — global row 8000·q + 2·y₀ + y₁ / 64 — against column y₁ mod 64; and
  that is the packed result at (4000·q + y₀, y₁). So every point writes back a block of ONE array-wide function, the 32
  row blocks tile the 128000 rows (row i₀ lies in block i₀ / 4000), and the array ends holding that function.
-/
import proofs.«137393_j19490561590130_2_alg».proof.Proof.Gen.KernelIdeal.Frame
import proofs.«137393_j19490561590130_2_alg».proof.Proof.Body
import proofs.«137393_j19490561590130_2_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.Irfft
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- A [256000, 64] array and a [128000, 128] one have the same number of entries. -/
theorem pack_casts : SignalRows.ShapeCasts SignalPacked := by decide

/-- The packed result of the arrays as the grid finds them: the flattened spectra and the two matrices. -/
abbrev packedOf (c : Dev nD) : S128000x128.Idx → EReal :=
  packed (V m c main_v0) (V m c main_v1) (V m c main_arg2) (V m c main_arg3) pack_casts

/-- Where each window sits at a grid point: both spectra move down their rows with the output (block row for block
    row), never sideways; the matrices stay whole; the output's block row is at most 31 and it never moves sideways. -/
theorem block_positions : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 31 ∧ win0_4.index t (1 : Fin 2) = 0 :=
  (by decide +kernel : ∀ t : Fin grid0.N, _)

/-- Every one of the 32 block rows of the output is some point's. -/
theorem block_row_onto : ∀ q : Fin 32, ∃ t : Fin cfg0.N, win0_4.index t = ![q.val, 0] :=
  (by decide +kernel : ∀ q : Fin 32, ∃ t : Fin grid0.N, win0_4.index t = ![q.val, 0])

/-- What point t writes back is block t of the packed result. -/
theorem flushed_eq (c : Dev nD) (t : Fin cfg0.N) :
    (dats m 0 c).flushed 4 t = ((cfg0.win 4).blk t).view.read (Elt Ideal) (packedOf m c) := by
  show (cfg0.win 4).cut (grid0.coords t) ((dats m 0 c).after 4 t) = _
  rw [after0_4]
  unfold out0_4
  rw [View.canon_unit_zero zero_offsets]
  simp only [View.ld_unit_zero (S := S8000x129) zero_offsets, View.ld_unit_zero (S := S129x64) zero_offsets]
  obtain ⟨e0, e1, e2, e3, e4, e5, e6, e7, e8, e9⟩ := block_positions t
  funext j
  have hj0 : (j 0).val < 4000 := (j 0).isLt
  have hj1 : (j 1).val < 128 := (j 1).isLt
  have hp : 2 * (j 0).val + (j 1).val / 64 < 8000 := by omega
  have ho : (j 1).val % 64 < 64 := by omega
  have hr : win0_4.index t (0 : Fin 2) * 8000 + (2 * (j 0).val + (j 1).val / 64) < 256000 := by omega
  show k0_pay1 (F := Ideal) (iblk m c 0 t) (iblk m c 1 t) (iblk m c 2 t) (iblk m c 3 t) j
    = packedOf m c (((cfg0.win 4).blk t).view.emb j)
  refine (Body.stored_at (iblk m c 0 t) (iblk m c 1 t) (iblk m c 2 t) (iblk m c 3 t) j hp ho).trans ?_
  refine Eq.trans ?_ (packed_apply (V m c main_v0) (V m c main_v1) (V m c main_arg2) (V m c main_arg3) pack_casts
    (win0_4.index t (0 : Fin 2)) ⟨(j 0).val, hj0⟩ ⟨(j 1).val, hj1⟩ (((cfg0.win 4).blk t).view.emb j)
    (by show win0_4.index t (0 : Fin 2) * 4000 + 1 * (j 0).val = _; rfl)
    (by show win0_4.index t (1 : Fin 2) * 128 + 1 * (j 1).val = 0 * 128 + 1 * (j 1).val; rw [e9])
    hr ho).symm
  -- the spectra's blocks are the arrays' rows 8000·q + p, the matrices' blocks the matrices
  have i0 : ∀ k : Fin 129, ((cfg0.win 0).blk t).view.emb (ix2 (⟨2 * (j 0).val + (j 1).val / 64, hp⟩ : Fin 8000) k)
      = ix2 (⟨win0_4.index t (0 : Fin 2) * 8000 + (2 * (j 0).val + (j 1).val / 64), hr⟩ : Fin 256000) k := by
    intro k; funext a; apply Fin.ext
    match a with
    | ⟨0, _⟩ => show win0_0.index t (0 : Fin 2) * 8000 + 1 * (2 * (j 0).val + (j 1).val / 64) = win0_4.index t (0 : Fin 2) * 8000 + (2 * (j 0).val + (j 1).val / 64); omega
    | ⟨1, _⟩ => show win0_0.index t (1 : Fin 2) * 129 + 1 * k.val = k.val; omega
  have i1 : ∀ k : Fin 129, ((cfg0.win 1).blk t).view.emb (ix2 (⟨2 * (j 0).val + (j 1).val / 64, hp⟩ : Fin 8000) k)
      = ix2 (⟨win0_4.index t (0 : Fin 2) * 8000 + (2 * (j 0).val + (j 1).val / 64), hr⟩ : Fin 256000) k := by
    intro k; funext a; apply Fin.ext
    match a with
    | ⟨0, _⟩ => show win0_1.index t (0 : Fin 2) * 8000 + 1 * (2 * (j 0).val + (j 1).val / 64) = win0_4.index t (0 : Fin 2) * 8000 + (2 * (j 0).val + (j 1).val / 64); omega
    | ⟨1, _⟩ => show win0_1.index t (1 : Fin 2) * 129 + 1 * k.val = k.val; omega
  have i2 : ∀ k : Fin 129, ((cfg0.win 2).blk t).view.emb (ix2 k (⟨(j 1).val % 64, ho⟩ : Fin 64)) = ix2 k (⟨(j 1).val % 64, ho⟩ : Fin 64) := by
    intro k; funext a; apply Fin.ext
    match a with
    | ⟨0, _⟩ => show win0_2.index t (0 : Fin 2) * 129 + 1 * k.val = k.val; omega
    | ⟨1, _⟩ => show win0_2.index t (1 : Fin 2) * 64 + 1 * ((j 1).val % 64) = (j 1).val % 64; omega
  have i3 : ∀ k : Fin 129, ((cfg0.win 3).blk t).view.emb (ix2 k (⟨(j 1).val % 64, ho⟩ : Fin 64)) = ix2 k (⟨(j 1).val % 64, ho⟩ : Fin 64) := by
    intro k; funext a; apply Fin.ext
    match a with
    | ⟨0, _⟩ => show win0_3.index t (0 : Fin 2) * 129 + 1 * k.val = k.val; omega
    | ⟨1, _⟩ => show win0_3.index t (1 : Fin 2) * 64 + 1 * ((j 1).val % 64) = (j 1).val % 64; omega
  unfold flatAt
  refine congrArg₂ (· + ·) (Finset.sum_congr rfl fun k _ => ?_) (Finset.sum_congr rfl fun k _ => ?_)
  · have r0 : (iblk m c 0 t (ix2 (⟨2 * (j 0).val + (j 1).val / 64, hp⟩ : Fin 8000) k) : EReal)
        = V m c main_v0 (ix2 (⟨win0_4.index t (0 : Fin 2) * 8000 + (2 * (j 0).val + (j 1).val / 64), hr⟩ : Fin 256000) k) := by
      show V m c main_v0 (((cfg0.win 0).blk t).view.emb (ix2 (⟨2 * (j 0).val + (j 1).val / 64, hp⟩ : Fin 8000) k)) = _
      rw [i0 k]
    have r2 : (iblk m c 2 t (ix2 k (⟨(j 1).val % 64, ho⟩ : Fin 64)) : EReal) = V m c main_arg2 (ix2 k (⟨(j 1).val % 64, ho⟩ : Fin 64)) := by
      show V m c main_arg2 (((cfg0.win 2).blk t).view.emb (ix2 k (⟨(j 1).val % 64, ho⟩ : Fin 64))) = _
      rw [i2 k]
    exact congrArg₂ (fun a b : EReal => a * b) r0 r2
  · have r1 : (iblk m c 1 t (ix2 (⟨2 * (j 0).val + (j 1).val / 64, hp⟩ : Fin 8000) k) : EReal)
        = V m c main_v1 (ix2 (⟨win0_4.index t (0 : Fin 2) * 8000 + (2 * (j 0).val + (j 1).val / 64), hr⟩ : Fin 256000) k) := by
      show V m c main_v1 (((cfg0.win 1).blk t).view.emb (ix2 (⟨2 * (j 0).val + (j 1).val / 64, hp⟩ : Fin 8000) k)) = _
      rw [i1 k]
    have r3 : (iblk m c 3 t (ix2 k (⟨(j 1).val % 64, ho⟩ : Fin 64)) : EReal) = V m c main_arg3 (ix2 k (⟨(j 1).val % 64, ho⟩ : Fin 64)) := by
      show V m c main_arg3 (((cfg0.win 3).blk t).view.emb (ix2 k (⟨(j 1).val % 64, ho⟩ : Fin 64))) = _
      rw [i3 k]
    exact congrArg₂ (fun a b : EReal => a * b) r1 r3

/-- An index of the packed array is in point t's block iff each coordinate is in the block's range on its axis. -/
theorem mem_blk (t : Fin cfg0.N) (i : S128000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v2).slice (win0_4.rect t)).set ↔ _
  rw [View.set_slice_whole, Rect.mem_set_unit]
  exact Iff.rfl

/-- Every index of the packed array is in some point's block: row i₀ in block row i₀ / 4000. -/
theorem covered (i : S128000x128.Idx) :
    ∃ t : Fin cfg0.N, (cfg0.win 4).flush t = true ∧ i ∈ ((cfg0.win 4).blk t).view.set := by
  have hi0 : (i 0).val < 128000 := (i 0).isLt
  have hi1 : (i 1).val < 128 := (i 1).isLt
  obtain ⟨t, ht⟩ := block_row_onto ⟨(i 0).val / 4000, by omega⟩
  have q0 : win0_4.index t (0 : Fin 2) = (i 0).val / 4000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 128 ≤ (i 1).val ∧ (i 1).val < win0_4.index t (1 : Fin 2) * 128 + 128; omega

/-- The packed output array after the run is the packed result. -/
theorem final (c : Dev nD) : (dats m 0 c).arrAt 4 cfg0.N = packedOf m c :=
  (dats m 0 c).arrAt_eq_of_cover 4 (packedOf m c) (fun t _ => flushed_eq m c t) covered

end Cert.KernelIdeal.Blocks

end
-- ==== Proof.WholeRun.lean ====
/-
  The whole program's result as one function of its arguments.

  Before the grid runs, each [64, 4000, 129] spectrum is flattened to [256000, 129] rows. The grid leaves the packed
  [128000, 128] result of those rows and the two matrices. After it, the packed array is widened back to [256000, 64] —
  which undoes the packing, giving the flat result — and the rows are un-flattened to [64, 4000, 64]. Un-flattening the
  flat result of flattened spectra is the result function synth of the original four arguments.
-/
import proofs.«137393_j19490561590130_2_alg».proof.Proof.Blocks
import Idealize.ShloMosaic.Lib.StableHlo.Run

noncomputable section

namespace Cert.KernelIdeal.WholeRun

open Cert.KernelIdeal Cert.KernelIdeal.Gen Idealize.ShloMosaic Idealize.ShloMosaic.TcCoe Idealize.SL.Sem
open Idealize.ShloMosaic.ValueIdx Cert.Irfft Idealize.ShloMosaic.StableHlo
open Idealize.ShloMosaic.Pipeline (Dat)

variable (m : (ℓ : Loc nD τ sig) → Buf (Elt Ideal) ℓ) (ρ : Dev nD → PrngReg)

/-- The grid finds the first spectrum flattened to rows … -/
theorem rows0 (c : Dev nD) :
    (V m c main_v0 : S256000x129.Idx → EReal)
      = shapeCast S256000x129 (m ((c : Thread nD τ).loc main_arg0)) shapeCasts_S64x4000x129_S256000x129 := by
  show StableHlo.after hostOps0 (fun b => m (c, b)) (Proc.devRef .tc main_v0) = _
  after_results
  rfl
/-- … and the second likewise. -/
theorem rows1 (c : Dev nD) :
    (V m c main_v1 : S256000x129.Idx → EReal)
      = shapeCast S256000x129 (m ((c : Thread nD τ).loc main_arg1)) shapeCasts_S64x4000x129_S256000x129 := by
  show StableHlo.after hostOps0 (fun b => m (c, b)) (Proc.devRef .tc main_v1) = _
  after_results
  rfl

/-- The two re-layouts after the grid: widening the packed result back to 64 columns is the flat result, which is then
    un-flattened. -/
theorem tail_eq (c : Dev nD) :
    Pipeline.afterTail₀ cfgs (dats m) 0 (V0 m) [hostOps1] c main_v4
      = shapeCast S64x4000x64 (flat (V m c main_v0) (V m c main_v1) (V m c main_arg2) (V m c main_arg3))
          shapeCasts_S256000x64_S64x4000x64 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v2)
      = Blocks.packedOf m c :=
    (Pipeline.withArrays_arr spec0 launch0.win.arr_inj c _ _ 4).trans (Blocks.final m c)
  rw [hw]
  show shapeCast S64x4000x64 (shapeCast S256000x64 (Blocks.packedOf m c) shapeCasts_S128000x128_S256000x64)
    shapeCasts_S256000x64_S64x4000x64 = _
  rw [show shapeCast S256000x64 (Blocks.packedOf m c) shapeCasts_S128000x128_S256000x64
      = flat (V m c main_v0) (V m c main_v1) (V m c main_arg2) (V m c main_arg3) from
    unpack_packed _ _ _ _ Blocks.pack_casts shapeCasts_S128000x128_S256000x64]

/-- The program's result buffer after the run, as a function of the four arguments. -/
theorem result_eq (c : Dev nD) :
    Pipeline.afterTail₀ cfgs (dats m) 0 (V0 m) [hostOps1] c main_v4
      = synth (m ((c : Thread nD τ).loc main_arg0)) (m ((c : Thread nD τ).loc main_arg1))
          (m ((c : Thread nD τ).loc main_arg2)) (m ((c : Thread nD τ).loc main_arg3)) := by
  rw [tail_eq, rows0, rows1, V_main_arg2, V_main_arg3]
  exact unflatten_flat _ _ _ _ shapeCasts_S64x4000x129_S256000x129 shapeCasts_S256000x64_S64x4000x64

/-- Every weakly fair execution terminates with the result buffer at synth of the arguments and the arguments unchanged. -/
theorem run : θ_run defs (onTc (τ := τ) (main (F := Ideal))) ⟨m, fun _ => 0, ρ⟩ fun r => ∀ c : Dev nD,
      r.2.mem ((c.tc : Thread nD τ).loc main_v4)
        = synth (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.WholeRun

end
-- ==== Proof.Reference.lean ====
/-
  The reference is the result function itself.

  The reference contracts the bin axis of each spectrum against its matrix directly on the [64, 4000, 129] arrays and
  adds the two products. Read at (b, t, o) each product is the sum over the 129 bins of the spectrum at (b, t, n) times
  the matrix at (n, o): the two operand indices of the contraction are exactly those of synth.
-/
import proofs.«137393_j19490561590130_2_alg».proof.Proof.Gen.ReferenceIdeal.Read
import proofs.«137393_j19490561590130_2_alg».proof.Proof.Spec

noncomputable section

namespace Cert.ReferenceIdeal.RefValue

open Cert.ReferenceIdeal Cert.ReferenceIdeal.Read Idealize.ShloMosaic Idealize.ShloMosaic.ValueIdx Cert.Irfft

/-- The first product reads its spectrum at (b, t, n) … -/
theorem spectrum_idx0 (b : Fin 64) (t : Fin 4000) (o : Fin 64) (k : Fin 129) : lidx_main_v0 (ix3 b t o) k = ix3 b t k :=
  funext fun a => Fin.ext (by match a with | ⟨0, _⟩ => rfl | ⟨1, _⟩ => rfl | ⟨2, _⟩ => rfl)
/-- … and its matrix at (n, o); -/
theorem matrix_idx0 (b : Fin 64) (t : Fin 4000) (o : Fin 64) (k : Fin 129) : ridx_main_v0 (ix3 b t o) k = ix2 k o :=
  funext fun a => Fin.ext (by match a with | ⟨0, _⟩ => rfl | ⟨1, _⟩ => rfl)
/-- the second product likewise. -/
theorem spectrum_idx1 (b : Fin 64) (t : Fin 4000) (o : Fin 64) (k : Fin 129) : lidx_main_v1 (ix3 b t o) k = ix3 b t k :=
  funext fun a => Fin.ext (by match a with | ⟨0, _⟩ => rfl | ⟨1, _⟩ => rfl | ⟨2, _⟩ => rfl)
theorem matrix_idx1 (b : Fin 64) (t : Fin 4000) (o : Fin 64) (k : Fin 129) : ridx_main_v1 (ix3 b t o) k = ix2 k o :=
  funext fun a => Fin.ext (by match a with | ⟨0, _⟩ => rfl | ⟨1, _⟩ => rfl)

/-- The reference's result, as a function of its four arguments, is synth: entry by entry the same two sums, added. -/
theorem result_eq (x0 x1 : (⟨S64x4000x129, .f32⟩ : BufTy).Contents (Elt Ideal)) (x2 x3 : (⟨S129x64, .f32⟩ : BufTy).Contents (Elt Ideal)) :
    val_main_v2 (F := Ideal) x0 x1 x2 x3 = synth x0 x1 x2 x3 := by
  funext i
  obtain ⟨b, t, o, rfl⟩ : ∃ (b : Fin 64) (t : Fin 4000) (o : Fin 64), i = ix3 b t o := ⟨i 0, i 1, i 2, eq_ix3 i⟩
  rw [val_main_v2_apply, val_main_v0_apply, val_main_v1_apply, synth_apply]
  simp only [spectrum_idx0, matrix_idx0, spectrum_idx1, matrix_idx1]
  rfl

end Cert.ReferenceIdeal.RefValue

end
-- ==== Proof.lean ====
/-
  A dense inverse real FFT evaluated in blocks equals the direct one, on the extended reals.

  The claim. Given spectra re, im : [64, 4000, 129] and synthesis matrices m_real, m_imag : [129, 64], both programs end
  with
      out[b, t, o] = Σₙ re[b, t, n] · m_real[n, o]  +  Σₙ im[b, t, n] · m_imag[n, o]
  in their result buffer, their arguments unchanged.

  The reference computes exactly this: two contractions over the bin axis and one addition.

  The blocked program flattens (batch, frame) to 256000 rows, cuts the rows into 32 blocks of 8000, and for each block
  multiplies it by each whole matrix into a zero accumulator, adds the two products, and writes the [8000, 64] sum as a
  [4000, 128] block — two consecutive rows side by side — of a [128000, 128] array. Afterwards the array is widened back
  to [256000, 64] and the rows un-flattened to [64, 4000, 64]. Every step only re-names indices: a product into a zero
  accumulator is the sum over the contracted axis; a re-layout keeps each entry at its row-major position; the 32 row
  blocks tile the rows. So each entry of the final array is the same pair of sums of the same products as the
  reference's, and no law of the extended reals beyond 0 + x = x is used; in particular nothing needs the inputs to be
  finite.

  The pieces: the result function and its re-layouts (Proof/Spec.lean); one block's stored values entry by entry
  (Proof/Body.lean); from the 32 blocks to the whole packed array (Proof/Blocks.lean); the re-layouts before and after the
  grid, and the whole run (Proof/WholeRun.lean); the reference's result (Proof/Reference.lean). That each program
  terminates without fault and leaves its arguments alone comes from the generated frame modules and the generated
  reference run; no operation of the program was rewritten for the idealized reading, so that conjunct is trivial.
-/
import proofs.«137393_j19490561590130_2_alg».proof.Defs
import proofs.«137393_j19490561590130_2_alg».proof.Proof.Gen.Kernel
import proofs.«137393_j19490561590130_2_alg».proof.Proof.Gen.Kernel.Skeleton
import proofs.«137393_j19490561590130_2_alg».proof.Proof.Gen.Kernel.Launch
import proofs.«137393_j19490561590130_2_alg».proof.Proof.Gen.Kernel.Points
import proofs.«137393_j19490561590130_2_alg».proof.Proof.Gen.Kernel.Frame
import proofs.«137393_j19490561590130_2_alg».proof.Proof.Gen.KernelIdeal
import proofs.«137393_j19490561590130_2_alg».proof.Proof.Gen.KernelIdeal.Skeleton
import proofs.«137393_j19490561590130_2_alg».proof.Proof.Gen.KernelIdeal.Launch
import proofs.«137393_j19490561590130_2_alg».proof.Proof.Gen.KernelIdeal.Points
import proofs.«137393_j19490561590130_2_alg».proof.Proof.Gen.KernelIdeal.Frame
import proofs.«137393_j19490561590130_2_alg».proof.Proof.Gen.ReferenceIdeal
import proofs.«137393_j19490561590130_2_alg».proof.Proof.Gen.ReferenceIdeal.Run
import proofs.«137393_j19490561590130_2_alg».proof.Proof.Gen.ReferenceIdeal.Read
import proofs.«137393_j19490561590130_2_alg».proof.Proof.Gen.Pre_finite_inputs
import proofs.«137393_j19490561590130_2_alg».proof.Proof.WholeRun
import proofs.«137393_j19490561590130_2_alg».proof.Proof.Reference
import Idealize.ShloMosaic.Adequacy
import Idealize.ShloMosaic.Init

noncomputable section

namespace Cert.Proof

open Idealize.ShloMosaic Idealize.SL.Sem

/-- The word-level program terminates without fault and leaves its arguments unchanged. -/
theorem frame_kernel : Cert.frame_Kernel := fun m ρ _ => Cert.Kernel.Gen.frame m ρ

/-- So does the program read over the extended reals. -/
theorem frame_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the program over the extended reals rewrote none of its operations. -/
theorem preserves : Cert.preserves_Kernel_KernelIdeal := trivial

/-- From arguments that agree, both programs end with the same result: the blocked program's result buffer holds
    synth of the arguments (the whole run), and the reference's two contractions added are synth of the same arguments. -/
theorem algebraic : Cert.algebraic_KernelIdeal_ReferenceIdeal := by
  intro m ρ m' ρ' _ hagree
  refine ⟨_, Cert.KernelIdeal.WholeRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
